-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x1024 : Shape := ⟨2, ![512, 1024]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512x512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x1024 .f32) (main_arg5 : FVec F S1024 .f32) (main_arg6 : FVec F S512x512 .f32) (main_arg7 : FVec F S512 .f32) (main_arg8 : FVec F S512x512 .f32) (main_arg9 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x512 .f32) (main_arg1 : FVec F S32768x512 .f32) (main_arg2 : FVec F S512x1024 .f32) (main_arg3 : FVec F S1024 .f32) (main_arg4 : FVec F S512x1024 .f32) (main_arg5 : FVec F S1024 .f32) (main_arg6 : FVec F S512x512 .f32) (main_arg7 : FVec F S512 .f32) (main_arg8 : FVec F S512x512 .f32) (main_arg9 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S32768x512 : Shape := ⟨2, ![32768, 512]⟩
abbrev S512x1024 : Shape := ⟨2, ![512, 1024]⟩
abbrev S1024 : Shape := ⟨1, ![1024]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x1536 : Shape := ⟨2, ![1, 1536]⟩
abbrev S1024x512 : Shape := ⟨2, ![1024, 512]⟩
abbrev S1024x1536 : Shape := ⟨2, ![1024, 1536]⟩
abbrev S1024x1024 : Shape := ⟨2, ![1024, 1024]⟩
abbrev S1024x1 : Shape := ⟨2, ![1024, 1]⟩

abbrev nBuf : Space → Nat
  | .hbm => 19
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x1024, .f32⟩
  | .hbm, ⟨3, _⟩ => ⟨S1024, .f32⟩
  | .hbm, ⟨4, _⟩ => ⟨S512x1024, .f32⟩
  | .hbm, ⟨5, _⟩ => ⟨S1024, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x1536, .f32⟩
  | .hbm, ⟨11, _⟩ => ⟨S512x1536, .bf16⟩
  | .hbm, ⟨12, _⟩ => ⟨S512x1536, .f32⟩
  | .hbm, ⟨13, _⟩ => ⟨S512x1536, .bf16⟩
  | .hbm, ⟨14, _⟩ => ⟨S1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1536, .bf16⟩
  | .local _ .vmem, ⟨5, _⟩ => ⟨S1x1536, .f32⟩
  | .local _ .vmem, ⟨6, _⟩ => ⟨S512x1536, .bf16⟩
  | .local _ .vmem, ⟨7, _⟩ => ⟨S1x1536, .f32⟩
  | .local _ .vmem, ⟨8, _⟩ => ⟨S1024x512, .f32⟩
  | .local _ .vmem, ⟨9, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x1024_S512x512_S512x1536_d1 : Shape.Concatenates [S512x1024, S512x512] S512x1536 1
  bitsLt_bf16_f32 : FTy.bits .bf16 < FTy.bits .f32
  concatenates_S1024_S512_S1536_d0 : Shape.Concatenates [S1024, S512] S1536 0
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x1024 : S1024x1536.Slices ![0, 0] S1024x1024
  slices_S1024x1536_o0_1024_S1024x512 : S1024x1536.Slices ![0, 1024] S1024x512
  reduces_S1024x1024_S1024 : S1024x1024.Reduces [1] S1024
  shapeCasts_S1024_S1024x1 : S1024.ShapeCasts S1024x1
  broadcasts_S1024x1_S1024x1024 : S1024x1.Broadcasts S1024x1024
  slices_S1024x1024_o0_0_S1024x512 : S1024x1024.Slices ![0, 0] S1024x512
  slices_S1024x1024_o0_512_S1024x512 : S1024x1024.Slices ![0, 512] S1024x512
  reduces_S1024x512_S1024 : S1024x512.Reduces [1] S1024
  broadcasts_S1024x1_S1024x512 : S1024x1.Broadcasts S1024x512
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x1024 : Shape := ⟨2, ![512, 1024]⟩
abbrev S1024 : Shape := ⟨1, ![1024]⟩
abbrev S512x512 : Shape := ⟨2, ![512, 512]⟩
abbrev S512 : Shape := ⟨1, ![512]⟩
abbrev S32768x1024 : Shape := ⟨2, ![32768, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x512 : Shape := ⟨2, ![1, 512]⟩

abbrev nBuf : Space → Nat
  | .hbm => 138
  | .vmem => 0
  | .smem => 0
  | _ => 0

abbrev hbmTy0_0 (i : Nat) : BufTy := match i % 128 with
  | 0 => ⟨S32768x512, .f32⟩
  | 1 => ⟨S32768x512, .f32⟩
  | 2 => ⟨S512x1024, .f32⟩
  | 3 => ⟨S1024, .f32⟩
  | 4 => ⟨S512x1024, .f32⟩
  | 5 => ⟨S1024, .f32⟩
  | 6 => ⟨S512x512, .f32⟩
  | 7 => ⟨S512, .f32⟩
  | 8 => ⟨S512x512, .f32⟩
  | 9 => ⟨S512, .f32⟩
  | 10 => ⟨S32768x1024, .f32⟩
  | 11 => ⟨S1x1024, .f32⟩
  | 12 => ⟨S32768x1024, .f32⟩
  | 13 => ⟨S32768x1024, .f32⟩
  | 14 => ⟨S_, .f32⟩
  | 15 => ⟨S32768, .f32⟩
  | 16 => ⟨S32768x1, .f32⟩
  | 17 => ⟨S_, .f32⟩
  | 18 => ⟨S32768x1, .f32⟩
  | 19 => ⟨S32768x1, .f32⟩
  | 20 => ⟨S32768x1024, .f32⟩
  | 21 => ⟨S32768x1024, .f32⟩
  | 22 => ⟨S32768x1024, .f32⟩
  | 23 => ⟨S_, .f32⟩
  | 24 => ⟨S32768, .f32⟩
  | 25 => ⟨S32768x1, .f32⟩
  | 26 => ⟨S_, .f32⟩
  | 27 => ⟨S32768x1, .f32⟩
  | 28 => ⟨S32768x1, .f32⟩
  | 29 => ⟨S32768x1024, .f32⟩
  | 30 => ⟨S32768x1024, .f32⟩
  | 31 => ⟨S_, .f32⟩
  | 32 => ⟨S32768x1, .f32⟩
  | 33 => ⟨S32768x1, .f32⟩
  | 34 => ⟨S32768x1, .f32⟩
  | 35 => ⟨S32768x1024, .f32⟩
  | 36 => ⟨S32768x1024, .f32⟩
  | 37 => ⟨S32768x1024, .f32⟩
  | 38 => ⟨S1x1024, .f32⟩
  | 39 => ⟨S32768x1024, .f32⟩
  | 40 => ⟨S32768x1024, .f32⟩
  | 41 => ⟨S_, .f32⟩
  | 42 => ⟨S32768, .f32⟩
  | 43 => ⟨S32768x1, .f32⟩
  | 44 => ⟨S_, .f32⟩
  | 45 => ⟨S32768x1, .f32⟩
  | 46 => ⟨S32768x1, .f32⟩
  | 47 => ⟨S32768x1024, .f32⟩
  | 48 => ⟨S32768x1024, .f32⟩
  | 49 => ⟨S32768x1024, .f32⟩
  | 50 => ⟨S_, .f32⟩
  | 51 => ⟨S32768, .f32⟩
  | 52 => ⟨S32768x1, .f32⟩
  | 53 => ⟨S_, .f32⟩
  | 54 => ⟨S32768x1, .f32⟩
  | 55 => ⟨S32768x1, .f32⟩
  | 56 => ⟨S32768x1024, .f32⟩
  | 57 => ⟨S32768x1024, .f32⟩
  | 58 => ⟨S_, .f32⟩
  | 59 => ⟨S32768x1, .f32⟩
  | 60 => ⟨S32768x1, .f32⟩
  | 61 => ⟨S32768x1, .f32⟩
  | 62 => ⟨S32768x1024, .f32⟩
  | 63 => ⟨S32768x1024, .f32⟩
  | 64 => ⟨S32768x1024, .f32⟩
  | 65 => ⟨S32768x1024, .f32⟩
  | 66 => ⟨S32768x1024, .f32⟩
  | 67 => ⟨S_, .f32⟩
  | 68 => ⟨S32768x1024, .f32⟩
  | 69 => ⟨S32768x1024, .f32⟩
  | 70 => ⟨S_, .f32⟩
  | 71 => ⟨S32768x1024, .f32⟩
  | 72 => ⟨S32768x1024, .f32⟩
  | 73 => ⟨S32768x512, .f32⟩
  | 74 => ⟨S32768x512, .f32⟩
  | 75 => ⟨S32768x512, .f32⟩
  | 76 => ⟨S1x512, .f32⟩
  | 77 => ⟨S32768x512, .f32⟩
  | 78 => ⟨S32768x512, .f32⟩
  | 79 => ⟨S_, .f32⟩
  | 80 => ⟨S32768, .f32⟩
  | 81 => ⟨S32768x1, .f32⟩
  | 82 => ⟨S_, .f32⟩
  | 83 => ⟨S32768x1, .f32⟩
  | 84 => ⟨S32768x1, .f32⟩
  | 85 => ⟨S32768x512, .f32⟩
  | 86 => ⟨S32768x512, .f32⟩
  | 87 => ⟨S32768x512, .f32⟩
  | 88 => ⟨S_, .f32⟩
  | 89 => ⟨S32768, .f32⟩
  | 90 => ⟨S32768x1, .f32⟩
  | 91 => ⟨S_, .f32⟩
  | 92 => ⟨S32768x1, .f32⟩
  | 93 => ⟨S32768x1, .f32⟩
  | 94 => ⟨S32768x512, .f32⟩
  | 95 => ⟨S32768x512, .f32⟩
  | 96 => ⟨S_, .f32⟩
  | 97 => ⟨S32768x1, .f32⟩
  | 98 => ⟨S32768x1, .f32⟩
  | 99 => ⟨S32768x1, .f32⟩
  | 100 => ⟨S32768x512, .f32⟩
  | 101 => ⟨S32768x512, .f32⟩
  | 102 => ⟨S32768x512, .f32⟩
  | 103 => ⟨S1x512, .f32⟩
  | 104 => ⟨S32768x512, .f32⟩
  | 105 => ⟨S32768x512, .f32⟩
  | 106 => ⟨S_, .f32⟩
  | 107 => ⟨S32768, .f32⟩
  | 108 => ⟨S32768x1, .f32⟩
  | 109 => ⟨S_, .f32⟩
  | 110 => ⟨S32768x1, .f32⟩
  | 111 => ⟨S32768x1, .f32⟩
  | 112 => ⟨S32768x512, .f32⟩
  | 113 => ⟨S32768x512, .f32⟩
  | 114 => ⟨S32768x512, .f32⟩
  | 115 => ⟨S_, .f32⟩
  | 116 => ⟨S32768, .f32⟩
  | 117 => ⟨S32768x1, .f32⟩
  | 118 => ⟨S_, .f32⟩
  | 119 => ⟨S32768x1, .f32⟩
  | 120 => ⟨S32768x1, .f32⟩
  | 121 => ⟨S32768x512, .f32⟩
  | 122 => ⟨S32768x512, .f32⟩
  | 123 => ⟨S_, .f32⟩
  | 124 => ⟨S32768x1, .f32⟩
  | 125 => ⟨S32768x1, .f32⟩
  | 126 => ⟨S32768x1, .f32⟩
  | 127 => ⟨S32768x512, .f32⟩
  | _ => ⟨S32768x512, .f32⟩

abbrev hbmTy0_1 (i : Nat) : BufTy := match i % 128 with
  | 0 => ⟨S32768x512, .f32⟩
  | 1 => ⟨S32768x512, .f32⟩
  | 2 => ⟨S32768x512, .f32⟩
  | 3 => ⟨S32768x512, .f32⟩
  | 4 => ⟨S_, .f32⟩
  | 5 => ⟨S32768x512, .f32⟩
  | 6 => ⟨S32768x512, .f32⟩
  | 7 => ⟨S32768x512, .f32⟩
  | 8 => ⟨S32768x512, .f32⟩
  | 9 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_20 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_21 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S_S32768x1024 : S_.BroadcastsInDim S32768x1024 (![] : Fin 0 → Fin S32768x1024.rank)
  slices_S32768x1024_S32768x512_0_0 : S32768x1024.Slices ![0, 0] S32768x512
  slices_S32768x1024_S32768x512_0_512 : S32768x1024.Slices ![0, 512] S32768x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S32768_d1 : S32768x512.ReducesTo [1] S32768
  bcast_S32768x1_S32768x512_0_1 : S32768x1.BroadcastsInDim S32768x512 (![0, 1] : Fin 2 → Fin S32768x512.rank)
  bcast_S_S32768x512 : S_.BroadcastsInDim S32768x512 (![] : Fin 0 → Fin S32768x512.rank)
  dot_S32768x512_S512x1024_S32768x1024_1_0_0_1_n_n_wf : DotDims.WF S32768x512 S512x1024 S32768x1024 [1] [0] [0] [1] [] []
  dot_S32768x512_S512x512_S32768x512_1_0_0_1_n_n_wf : DotDims.WF S32768x512 S512x512 S32768x512 [1] [0] [0] [1] [] []

variable [Facts₀]

def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.LibLayerNorm.lean ====
/-
  Layer normalisation of one row, on the extended reals.

  A row `a` over a finite index type is normalised by subtracting its mean `μ = (∑ a) / c` and scaling by
  the inverse root of `v = (∑ (a - μ)²) / c + ε`.  Written with a reciprocal square root, `(a j - μ) · rsqrt v`,
  or with a quotient, `(a j - μ) / sqrt v`, it is one function as soon as `c` is a positive real and
  `0 < ε`: a square is never negative on the extended reals (`⊥ · ⊥ = ⊤`), so neither is a sum of squares nor
  its quotient by a positive real, hence `0 < v`; and for `0 < v` — a positive real, or `⊤` — the reciprocal root
  is the inverse of the root (`rsqrt ⊤ = 0 = ⊤⁻¹`).  No entry of the row needs to be finite.
-/
import Idealize.ShloMosaic.PureOps.Ideal

noncomputable section

namespace Cert.LayerNorm

open Idealize.ShloMosaic

/-- A square is never negative, at the infinities too. -/
theorem mul_self_nonneg (a : EReal) : 0 ≤ a * a := by
  induction a using EReal.rec with
  | bot => simp
  | coe r => exact_mod_cast _root_.mul_self_nonneg r
  | top => simp

/-- Above zero the reciprocal square root is the inverse of the square root: multiplying by the one is dividing by
    the other, for every extended real `x`. -/
theorem mul_rsqrt_eq_div_sqrt (x y : EReal) (hy : 0 < y) : x * Ideal.rsqrt y = Ideal.div x (Ideal.sqrt y) := by
  induction y using EReal.rec with
  | bot => exact absurd hy (by simp)
  | top =>
    rw [Ideal.rsqrt_top, Ideal.sqrt_top, Ideal.div, if_neg EReal.top_ne_zero, EReal.inv_top]
  | coe r =>
    have hr : 0 < r := by exact_mod_cast hy
    have hs : Real.sqrt r ≠ 0 := (Real.sqrt_pos.mpr hr).ne'
    have h1 : Ideal.rsqrt (r : EReal) = (((Real.sqrt r)⁻¹ : ℝ) : EReal) := by
      rw [Ideal.rsqrt_coe, if_neg (not_lt.mpr hr.le), if_neg hr.ne']
    have h2 : Ideal.sqrt (r : EReal) = ((Real.sqrt r : ℝ) : EReal) := by
      rw [Ideal.sqrt_coe, if_neg (not_lt.mpr hr.le)]
    rw [h1, h2, Ideal.div, if_neg (by exact_mod_cast hs), ← EReal.coe_inv]

variable {ι : Type*} [Fintype ι]

/-- The row's mean: its total over the count `c`. -/
def mean (c : EReal) (a : ι → EReal) : EReal := Ideal.div (∑ k, a k) c

/-- The mean squared deviation from the mean, plus `ε`. -/
def spread (c e : EReal) (a : ι → EReal) : EReal :=
  Ideal.div (∑ k, (a k - mean c a) * (a k - mean c a)) c + e

/-- The normalised entry, scaled by the reciprocal square root. -/
def byRsqrt (c e : EReal) (a : ι → EReal) (j : ι) : EReal := (a j - mean c a) * Ideal.rsqrt (spread c e a)

/-- The normalised entry, divided by the square root. -/
def bySqrt (c e : EReal) (a : ι → EReal) (j : ι) : EReal := Ideal.div (a j - mean c a) (Ideal.sqrt (spread c e a))

/-- With a positive real count and a positive `ε` the quantity under the root is positive. -/
theorem spread_pos {r : ℝ} (hr : 0 < r) {e : EReal} (he : 0 < e) (a : ι → EReal) : 0 < spread (r : EReal) e a := by
  unfold spread
  rw [Ideal.div_coe hr.ne']
  have hA : (0 : EReal) ≤ (∑ k, (a k - mean (r : EReal) a) * (a k - mean (r : EReal) a)) * ((1 / r : ℝ) : EReal) :=
    mul_nonneg (Finset.sum_nonneg fun k _ => mul_self_nonneg _) (by exact_mod_cast (one_div_pos.mpr hr).le)
  exact he.trans_le (le_add_of_nonneg_left hA)

/-- The two spellings of the normalised row are one function. -/
theorem byRsqrt_eq_bySqrt {r : ℝ} (hr : 0 < r) {e : EReal} (he : 0 < e) (a : ι → EReal) (j : ι) :
    byRsqrt (r : EReal) e a j = bySqrt (r : EReal) e a j :=
  mul_rsqrt_eq_div_sqrt _ _ (spread_pos hr he a)

end Cert.LayerNorm

end
-- ==== Proof.Consts.lean ====
/-
  The float constants both programs spell, as the extended reals their bit patterns denote: the row lengths
  1024 and 512, the unit 1, and the positive ε = 10995116 · 2⁻⁴⁰ (the binary32 nearest 10⁻⁵) added under the root.
-/
import Idealize.ShloMosaic.PureOps.Ideal

noncomputable section

namespace Cert.Consts

open Idealize.ShloMosaic

/-- `1024.0` denotes the real 1024. -/
theorem ofBits_1024 : Ideal.ofBits .f32 0x44800000#32 = ((1024 : ℝ) : EReal) := by
  simp [Ideal.ofBits, Ideal.ieee, -EReal.coe_mul]; norm_num

/-- `512.0` denotes the real 512. -/
theorem ofBits_512 : Ideal.ofBits .f32 0x44000000#32 = ((512 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-- The ε under the root is positive. -/
theorem eps_pos : (0 : EReal) < Ideal.ofBits .f32 0x3727C5AC#32 := by
  simp [Ideal.ofBits, Ideal.ieee, -EReal.coe_mul]

end Cert.Consts

end
-- ==== Proof.Spec.lean ====
/-
  The gated recurrent cell with layer-normalised projections, one output entry at a time, on the extended reals.

  For row `r` of the inputs `x`, `h` (length 512 each) the four projections are dense rows
      A = x·Wᵢ + bᵢ,  B = h·Wₕ + bₕ  (length 1024),    C = x·W_w + b_w,  D = h·W_u + b_u  (length 512),
  each is layer-normalised along its own length (mean and mean squared deviation over the row, ε under the root),
  the gates are  g = σ(LN A + LN B)  with update gate  z = g[0:512]  and reset gate  ρ = g[512:1024],  and the new
  state is  (1 − z)·h + z·tanh(LN C + ρ·LN D).  The cell is stated over an arbitrary normalisation `ln₁`, `ln₂` of a
  row so that the two spellings of the normalisation (reciprocal root, or quotient by the root) instantiate it.
-/
import Idealize.ShloMosaic.Lib.ValueIdx
import proofs.«163455_j4561255268489_2_alg».proof.Proof.LibLayerNorm
import proofs.«163455_j4561255268489_2_alg».proof.Proof.Consts

noncomputable section

namespace Cert.Gru

open Idealize.ShloMosaic Idealize.ShloMosaic.ValueIdx Cert.LayerNorm

/-- The row lengths, the ε under the root and the unit, as the words both programs spell. -/
abbrev c1024 : EReal := Ideal.ofBits .f32 0x44800000#32
abbrev c512 : EReal := Ideal.ofBits .f32 0x44000000#32
abbrev eps : EReal := Ideal.ofBits .f32 0x3727C5AC#32
abbrev one : EReal := Ideal.ofBits .f32 0x3F800000#32

/-- Row `r` of a matrix, a matrix by its two coordinates, a vector by its coordinate. -/
def rowOf {M K : Nat} (X : (⟨2, ![M, K]⟩ : Shape).Idx → EReal) (r : Fin M) : Fin K → EReal := fun k => X (ix2 r k)
def matOf {K N : Nat} (W : (⟨2, ![K, N]⟩ : Shape).Idx → EReal) : Fin K → Fin N → EReal := fun k n => W (ix2 k n)
def vecOf {N : Nat} (b : (⟨1, ![N]⟩ : Shape).Idx → EReal) : Fin N → EReal := fun n => b (ix1 n)

/-- A dense row: `x·W + b` at column `n`. -/
def lin {K N : Nat} (x : Fin K → EReal) (W : Fin K → Fin N → EReal) (b : Fin N → EReal) (n : Fin N) : EReal :=
  (∑ k, x k * W k n) + b n

/-- Column `j` of the update half and of the reset half of the 1024 gate columns. -/
def lo (j : Fin 512) : Fin 1024 := ⟨j.val, by have := j.isLt; omega⟩
def hi (j : Fin 512) : Fin 1024 := ⟨512 + j.val, by have := j.isLt; omega⟩

/-- The gate at column `n`: the logistic function of the two normalised projections' sum. -/
def gate (ln₁ : (Fin 1024 → EReal) → Fin 1024 → EReal) (A B : Fin 1024 → EReal) (n : Fin 1024) : EReal :=
  Ideal.logistic (ln₁ A n + ln₁ B n)

/-- Entry `j` of the new state of one row. -/
def cell (ln₁ : (Fin 1024 → EReal) → Fin 1024 → EReal) (ln₂ : (Fin 512 → EReal) → Fin 512 → EReal)
    (A B : Fin 1024 → EReal) (C D h : Fin 512 → EReal) (j : Fin 512) : EReal :=
  (one - gate ln₁ A B (lo j)) * h j
    + gate ln₁ A B (lo j) * Ideal.tanh (ln₂ C j + gate ln₁ A B (hi j) * ln₂ D j)

/-- The normalisation by the reciprocal root and by the quotient are one function, for both row lengths. -/
theorem byRsqrt_1024 (a : Fin 1024 → EReal) : byRsqrt c1024 eps a = bySqrt c1024 eps a := by
  funext j
  rw [show c1024 = ((1024 : ℝ) : EReal) from Cert.Consts.ofBits_1024]
  exact byRsqrt_eq_bySqrt (by norm_num) Cert.Consts.eps_pos a j

theorem byRsqrt_512 (a : Fin 512 → EReal) : byRsqrt c512 eps a = bySqrt c512 eps a := by
  funext j
  rw [show c512 = ((512 : ℝ) : EReal) from Cert.Consts.ofBits_512]
  exact byRsqrt_eq_bySqrt (by norm_num) Cert.Consts.eps_pos a j

/-- So the cell is the same whichever spelling normalises its rows. -/
theorem cell_byRsqrt (A B : Fin 1024 → EReal) (C D h : Fin 512 → EReal) (j : Fin 512) :
    cell (byRsqrt c1024 eps) (byRsqrt c512 eps) A B C D h j = cell (bySqrt c1024 eps) (bySqrt c512 eps) A B C D h j := by
  have e1 : byRsqrt (ι := Fin 1024) c1024 eps = bySqrt c1024 eps := funext byRsqrt_1024
  have e2 : byRsqrt (ι := Fin 512) c512 eps = bySqrt c512 eps := funext byRsqrt_512
  rw [e1, e2]

/-- The whole result array as one function of the ten argument arrays. -/
def G (X H : (⟨2, ![32768, 512]⟩ : Shape).Idx → EReal)
    (Wi : (⟨2, ![512, 1024]⟩ : Shape).Idx → EReal) (bi : (⟨1, ![1024]⟩ : Shape).Idx → EReal)
    (Wh : (⟨2, ![512, 1024]⟩ : Shape).Idx → EReal) (bh : (⟨1, ![1024]⟩ : Shape).Idx → EReal)
    (Ww : (⟨2, ![512, 512]⟩ : Shape).Idx → EReal) (bw : (⟨1, ![512]⟩ : Shape).Idx → EReal)
    (Wu : (⟨2, ![512, 512]⟩ : Shape).Idx → EReal) (bu : (⟨1, ![512]⟩ : Shape).Idx → EReal) :
    (⟨2, ![32768, 512]⟩ : Shape).Idx → EReal := fun i =>
  cell (bySqrt c1024 eps) (bySqrt c512 eps)
    (lin (rowOf X (i 0)) (matOf Wi) (vecOf bi)) (lin (rowOf H (i 0)) (matOf Wh) (vecOf bh))
    (lin (rowOf X (i 0)) (matOf Ww) (vecOf bw)) (lin (rowOf H (i 0)) (matOf Wu) (vecOf bu))
    (rowOf H (i 0)) (i 1)

end Cert.Gru

end
-- ==== Proof.RefCell.lean ====
/-
  The reference program's result is the cell, entry by entry.

  The reference computes each of the four projections as a whole [32768, n] array (a matrix product plus a bias row),
  normalises it along its rows by the quotient spelling (row sum over n, deviation, row sum of squared deviations over
  n, ε added, square root, quotient), spells the logistic function as 1 / (1 + exp(−·)), slices the 1024 gate columns
  into the update and reset halves and blends.  Read at an index (r, j) every operation touches row r only, so the
  result there is the cell of row r at column j.
-/
import proofs.«163455_j4561255268489_2_alg».proof.Proof.Gen.ReferenceIdeal.Read
import proofs.«163455_j4561255268489_2_alg».proof.Proof.Spec

noncomputable section

namespace Cert.Gru.Ref

open Cert.ReferenceIdeal Cert.ReferenceIdeal.Gen Cert.ReferenceIdeal.Read Idealize.ShloMosaic Idealize.ShloMosaic.ValueIdx
open Cert.LayerNorm Cert.Gru

/-! ### Projection A: the dense row, its mean, the quantity under the root, the normalised entry -/

theorem preA (x0 : (⟨S32768x512, .f32⟩ : BufTy).Contents (Elt Ideal)) (x2 : (⟨S512x1024, .f32⟩ : BufTy).Contents (Elt Ideal)) (x3 : (⟨S1024, .f32⟩ : BufTy).Contents (Elt Ideal)) (i : S32768x1024.Idx) :
    val_main_v3 (F := Ideal) x0 x2 x3 i = lin (rowOf x0 (i 0)) (matOf x2) (vecOf x3) (i 1) := by
  rw [val_main_v3_apply, val_main_v0_apply, val_main_v2_apply, val_main_v1_apply]
  have e1 : ∀ k, lidx_main_v0 i k = ix2 (i 0) k := fun k =>
    funext fun a => Fin.ext (by match a with | ⟨0, _⟩ => rfl | ⟨1, _⟩ => rfl)
  have e2 : ∀ k, ridx_main_v0 i k = ix2 k (i 1) := fun k =>
    funext fun a => Fin.ext (by match a with | ⟨0, _⟩ => rfl | ⟨1, _⟩ => rfl)
  have e3 : idx_main_v1 (idx_main_v2 i) = ix1 (i 1) :=
    funext fun a => Fin.ext (by match a with | ⟨0, _⟩ => rfl)
  simp only [e1, e2, e3]
  rfl

theorem meanA (x0 : (⟨S32768x512, .f32⟩ : BufTy).Contents (Elt Ideal)) (x2 : (⟨S512x1024, .f32⟩ : BufTy).Contents (Elt Ideal)) (x3 : (⟨S1024, .f32⟩ : BufTy).Contents (Elt Ideal)) (i : S32768x1.Idx) :
    val_main_v7 (F := Ideal) x0 x2 x3 i = mean c1024 (lin (rowOf x0 (i 0)) (matOf x2) (vecOf x3)) := by
  rw [val_main_v7_apply, val_main_v5_apply, val_main_v4_apply, val_main_v6_apply, val_main_cst_0_apply, val_main_cst_apply]
  show Ideal.div (Ideal.ofBits .f32 0x00000000#32 + ∑ k : Fin 1024, _) _ = _
  rw [Ideal.ofBits_zero_f32, zero_add]
  refine congrArg (fun s => Ideal.div s c1024) (Finset.sum_congr rfl fun k _ => ?_)
  rw [preA]
  rfl

theorem spreadA (x0 : (⟨S32768x512, .f32⟩ : BufTy).Contents (Elt Ideal)) (x2 : (⟨S512x1024, .f32⟩ : BufTy).Contents (Elt Ideal)) (x3 : (⟨S1024, .f32⟩ : BufTy).Contents (Elt Ideal)) (i : S32768x1.Idx) :
    val_main_v18 (F := Ideal) x0 x2 x3 i = spread c1024 eps (lin (rowOf x0 (i 0)) (matOf x2) (vecOf x3)) := by
  rw [val_main_v18_apply, val_main_v14_apply, val_main_v12_apply, val_main_v11_apply, val_main_v13_apply, val_main_cst_2_apply,
    val_main_cst_1_apply, val_main_v17_apply, val_main_cst_3_apply]
  show Ideal.div (Ideal.ofBits .f32 0x00000000#32 + ∑ k : Fin 1024, _) _ + _ = _
  rw [Ideal.ofBits_zero_f32, zero_add]
  refine congrArg (fun s => Ideal.div s c1024 + eps) (Finset.sum_congr rfl fun k _ => ?_)
  rw [val_main_v10_apply, val_main_v9_apply, val_main_v8_apply, preA, meanA]
  rfl

theorem lnA (x0 : (⟨S32768x512, .f32⟩ : BufTy).Contents (Elt Ideal)) (x2 : (⟨S512x1024, .f32⟩ : BufTy).Contents (Elt Ideal)) (x3 : (⟨S1024, .f32⟩ : BufTy).Contents (Elt Ideal)) (i : S32768x1024.Idx) :
    val_main_v21 (F := Ideal) x0 x2 x3 i = bySqrt c1024 eps (lin (rowOf x0 (i 0)) (matOf x2) (vecOf x3)) (i 1) := by
  rw [val_main_v21_apply, val_main_v16_apply, val_main_v15_apply, val_main_v20_apply, val_main_v19_apply, preA, meanA, spreadA]
  rfl

/-! ### Projection B: the dense row, its mean, the quantity under the root, the normalised entry -/

theorem preB (x1 : (⟨S32768x512, .f32⟩ : BufTy).Contents (Elt Ideal)) (x4 : (⟨S512x1024, .f32⟩ : BufTy).Contents (Elt Ideal)) (x5 : (⟨S1024, .f32⟩ : BufTy).Contents (Elt Ideal)) (i : S32768x1024.Idx) :
    val_main_v25 (F := Ideal) x1 x4 x5 i = lin (rowOf x1 (i 0)) (matOf x4) (vecOf x5) (i 1) := by
  rw [val_main_v25_apply, val_main_v22_apply, val_main_v24_apply, val_main_v23_apply]
  have e1 : ∀ k, lidx_main_v22 i k = ix2 (i 0) k := fun k =>
    funext fun a => Fin.ext (by match a with | ⟨0, _⟩ => rfl | ⟨1, _⟩ => rfl)
  have e2 : ∀ k, ridx_main_v22 i k = ix2 k (i 1) := fun k =>
    funext fun a => Fin.ext (by match a with | ⟨0, _⟩ => rfl | ⟨1, _⟩ => rfl)
  have e3 : idx_main_v23 (idx_main_v24 i) = ix1 (i 1) :=
    funext fun a => Fin.ext (by match a with | ⟨0, _⟩ => rfl)
  simp only [e1, e2, e3]
  rfl

theorem meanB (x1 : (⟨S32768x512, .f32⟩ : BufTy).Contents (Elt Ideal)) (x4 : (⟨S512x1024, .f32⟩ : BufTy).Contents (Elt Ideal)) (x5 : (⟨S1024, .f32⟩ : BufTy).Contents (Elt Ideal)) (i : S32768x1.Idx) :
    val_main_v29 (F := Ideal) x1 x4 x5 i = mean c1024 (lin (rowOf x1 (i 0)) (matOf x4) (vecOf x5)) := by
  rw [val_main_v29_apply, val_main_v27_apply, val_main_v26_apply, val_main_v28_apply, val_main_cst_5_apply, val_main_cst_4_apply]
  show Ideal.div (Ideal.ofBits .f32 0x00000000#32 + ∑ k : Fin 1024, _) _ = _
  rw [Ideal.ofBits_zero_f32, zero_add]
  refine congrArg (fun s => Ideal.div s c1024) (Finset.sum_congr rfl fun k _ => ?_)
  rw [preB]
  rfl

theorem spreadB (x1 : (⟨S32768x512, .f32⟩ : BufTy).Contents (Elt Ideal)) (x4 : (⟨S512x1024, .f32⟩ : BufTy).Contents (Elt Ideal)) (x5 : (⟨S1024, .f32⟩ : BufTy).Contents (Elt Ideal)) (i : S32768x1.Idx) :
    val_main_v40 (F := Ideal) x1 x4 x5 i = spread c1024 eps (lin (rowOf x1 (i 0)) (matOf x4) (vecOf x5)) := by
  rw [val_main_v40_apply, val_main_v36_apply, val_main_v34_apply, val_main_v33_apply, val_main_v35_apply, val_main_cst_7_apply,
    val_main_cst_6_apply, val_main_v39_apply, val_main_cst_8_apply]
  show Ideal.div (Ideal.ofBits .f32 0x00000000#32 + ∑ k : Fin 1024, _) _ + _ = _
  rw [Ideal.ofBits_zero_f32, zero_add]
  refine congrArg (fun s => Ideal.div s c1024 + eps) (Finset.sum_congr rfl fun k _ => ?_)
  rw [val_main_v32_apply, val_main_v31_apply, val_main_v30_apply, preB, meanB]
  rfl

theorem lnB (x1 : (⟨S32768x512, .f32⟩ : BufTy).Contents (Elt Ideal)) (x4 : (⟨S512x1024, .f32⟩ : BufTy).Contents (Elt Ideal)) (x5 : (⟨S1024, .f32⟩ : BufTy).Contents (Elt Ideal)) (i : S32768x1024.Idx) :
    val_main_v43 (F := Ideal) x1 x4 x5 i = bySqrt c1024 eps (lin (rowOf x1 (i 0)) (matOf x4) (vecOf x5)) (i 1) := by
  rw [val_main_v43_apply, val_main_v38_apply, val_main_v37_apply, val_main_v42_apply, val_main_v41_apply, preB, meanB, spreadB]
  rfl

/-! ### Projection C: the dense row, its mean, the quantity under the root, the normalised entry -/

theorem preC (x0 : (⟨S32768x512, .f32⟩ : BufTy).Contents (Elt Ideal)) (x6 : (⟨S512x512, .f32⟩ : BufTy).Contents (Elt Ideal)) (x7 : (⟨S512, .f32⟩ : BufTy).Contents (Elt Ideal)) (i : S32768x512.Idx) :
    val_main_v56 (F := Ideal) x0 x6 x7 i = lin (rowOf x0 (i 0)) (matOf x6) (vecOf x7) (i 1) := by
  rw [val_main_v56_apply, val_main_v53_apply, val_main_v55_apply, val_main_v54_apply]
  have e1 : ∀ k, lidx_main_v53 i k = ix2 (i 0) k := fun k =>
    funext fun a => Fin.ext (by match a with | ⟨0, _⟩ => rfl | ⟨1, _⟩ => rfl)
  have e2 : ∀ k, ridx_main_v53 i k = ix2 k (i 1) := fun k =>
    funext fun a => Fin.ext (by match a with | ⟨0, _⟩ => rfl | ⟨1, _⟩ => rfl)
  have e3 : idx_main_v54 (idx_main_v55 i) = ix1 (i 1) :=
    funext fun a => Fin.ext (by match a with | ⟨0, _⟩ => rfl)
  simp only [e1, e2, e3]
  rfl

theorem meanC (x0 : (⟨S32768x512, .f32⟩ : BufTy).Contents (Elt Ideal)) (x6 : (⟨S512x512, .f32⟩ : BufTy).Contents (Elt Ideal)) (x7 : (⟨S512, .f32⟩ : BufTy).Contents (Elt Ideal)) (i : S32768x1.Idx) :
    val_main_v60 (F := Ideal) x0 x6 x7 i = mean c512 (lin (rowOf x0 (i 0)) (matOf x6) (vecOf x7)) := by
  rw [val_main_v60_apply, val_main_v58_apply, val_main_v57_apply, val_main_v59_apply, val_main_cst_12_apply, val_main_cst_11_apply]
  show Ideal.div (Ideal.ofBits .f32 0x00000000#32 + ∑ k : Fin 512, _) _ = _
  rw [Ideal.ofBits_zero_f32, zero_add]
  refine congrArg (fun s => Ideal.div s c512) (Finset.sum_congr rfl fun k _ => ?_)
  rw [preC]
  rfl

theorem spreadC (x0 : (⟨S32768x512, .f32⟩ : BufTy).Contents (Elt Ideal)) (x6 : (⟨S512x512, .f32⟩ : BufTy).Contents (Elt Ideal)) (x7 : (⟨S512, .f32⟩ : BufTy).Contents (Elt Ideal)) (i : S32768x1.Idx) :
    val_main_v71 (F := Ideal) x0 x6 x7 i = spread c512 eps (lin (rowOf x0 (i 0)) (matOf x6) (vecOf x7)) := by
  rw [val_main_v71_apply, val_main_v67_apply, val_main_v65_apply, val_main_v64_apply, val_main_v66_apply, val_main_cst_14_apply,
    val_main_cst_13_apply, val_main_v70_apply, val_main_cst_15_apply]
  show Ideal.div (Ideal.ofBits .f32 0x00000000#32 + ∑ k : Fin 512, _) _ + _ = _
  rw [Ideal.ofBits_zero_f32, zero_add]
  refine congrArg (fun s => Ideal.div s c512 + eps) (Finset.sum_congr rfl fun k _ => ?_)
  rw [val_main_v63_apply, val_main_v62_apply, val_main_v61_apply, preC, meanC]
  rfl

theorem lnC (x0 : (⟨S32768x512, .f32⟩ : BufTy).Contents (Elt Ideal)) (x6 : (⟨S512x512, .f32⟩ : BufTy).Contents (Elt Ideal)) (x7 : (⟨S512, .f32⟩ : BufTy).Contents (Elt Ideal)) (i : S32768x512.Idx) :
    val_main_v74 (F := Ideal) x0 x6 x7 i = bySqrt c512 eps (lin (rowOf x0 (i 0)) (matOf x6) (vecOf x7)) (i 1) := by
  rw [val_main_v74_apply, val_main_v69_apply, val_main_v68_apply, val_main_v73_apply, val_main_v72_apply, preC, meanC, spreadC]
  rfl

/-! ### Projection D: the dense row, its mean, the quantity under the root, the normalised entry -/

theorem preD (x1 : (⟨S32768x512, .f32⟩ : BufTy).Contents (Elt Ideal)) (x8 : (⟨S512x512, .f32⟩ : BufTy).Contents (Elt Ideal)) (x9 : (⟨S512, .f32⟩ : BufTy).Contents (Elt Ideal)) (i : S32768x512.Idx) :
    val_main_v78 (F := Ideal) x1 x8 x9 i = lin (rowOf x1 (i 0)) (matOf x8) (vecOf x9) (i 1) := by
  rw [val_main_v78_apply, val_main_v75_apply, val_main_v77_apply, val_main_v76_apply]
  have e1 : ∀ k, lidx_main_v75 i k = ix2 (i 0) k := fun k =>
    funext fun a => Fin.ext (by match a with | ⟨0, _⟩ => rfl | ⟨1, _⟩ => rfl)
  have e2 : ∀ k, ridx_main_v75 i k = ix2 k (i 1) := fun k =>
    funext fun a => Fin.ext (by match a with | ⟨0, _⟩ => rfl | ⟨1, _⟩ => rfl)
  have e3 : idx_main_v76 (idx_main_v77 i) = ix1 (i 1) :=
    funext fun a => Fin.ext (by match a with | ⟨0, _⟩ => rfl)
  simp only [e1, e2, e3]
  rfl

theorem meanD (x1 : (⟨S32768x512, .f32⟩ : BufTy).Contents (Elt Ideal)) (x8 : (⟨S512x512, .f32⟩ : BufTy).Contents (Elt Ideal)) (x9 : (⟨S512, .f32⟩ : BufTy).Contents (Elt Ideal)) (i : S32768x1.Idx) :
    val_main_v82 (F := Ideal) x1 x8 x9 i = mean c512 (lin (rowOf x1 (i 0)) (matOf x8) (vecOf x9)) := by
  rw [val_main_v82_apply, val_main_v80_apply, val_main_v79_apply, val_main_v81_apply, val_main_cst_17_apply, val_main_cst_16_apply]
  show Ideal.div (Ideal.ofBits .f32 0x00000000#32 + ∑ k : Fin 512, _) _ = _
  rw [Ideal.ofBits_zero_f32, zero_add]
  refine congrArg (fun s => Ideal.div s c512) (Finset.sum_congr rfl fun k _ => ?_)
  rw [preD]
  rfl

theorem spreadD (x1 : (⟨S32768x512, .f32⟩ : BufTy).Contents (Elt Ideal)) (x8 : (⟨S512x512, .f32⟩ : BufTy).Contents (Elt Ideal)) (x9 : (⟨S512, .f32⟩ : BufTy).Contents (Elt Ideal)) (i : S32768x1.Idx) :
    val_main_v93 (F := Ideal) x1 x8 x9 i = spread c512 eps (lin (rowOf x1 (i 0)) (matOf x8) (vecOf x9)) := by
  rw [val_main_v93_apply, val_main_v89_apply, val_main_v87_apply, val_main_v86_apply, val_main_v88_apply, val_main_cst_19_apply,
    val_main_cst_18_apply, val_main_v92_apply, val_main_cst_20_apply]
  show Ideal.div (Ideal.ofBits .f32 0x00000000#32 + ∑ k : Fin 512, _) _ + _ = _
  rw [Ideal.ofBits_zero_f32, zero_add]
  refine congrArg (fun s => Ideal.div s c512 + eps) (Finset.sum_congr rfl fun k _ => ?_)
  rw [val_main_v85_apply, val_main_v84_apply, val_main_v83_apply, preD, meanD]
  rfl

theorem lnD (x1 : (⟨S32768x512, .f32⟩ : BufTy).Contents (Elt Ideal)) (x8 : (⟨S512x512, .f32⟩ : BufTy).Contents (Elt Ideal)) (x9 : (⟨S512, .f32⟩ : BufTy).Contents (Elt Ideal)) (i : S32768x512.Idx) :
    val_main_v96 (F := Ideal) x1 x8 x9 i = bySqrt c512 eps (lin (rowOf x1 (i 0)) (matOf x8) (vecOf x9)) (i 1) := by
  rw [val_main_v96_apply, val_main_v91_apply, val_main_v90_apply, val_main_v95_apply, val_main_v94_apply, preD, meanD, spreadD]
  rfl

/-! ### The gates and the blend -/

theorem gate_at (x0 x1 : (⟨S32768x512, .f32⟩ : BufTy).Contents (Elt Ideal)) (x2 : (⟨S512x1024, .f32⟩ : BufTy).Contents (Elt Ideal))
    (x3 : (⟨S1024, .f32⟩ : BufTy).Contents (Elt Ideal)) (x4 : (⟨S512x1024, .f32⟩ : BufTy).Contents (Elt Ideal))
    (x5 : (⟨S1024, .f32⟩ : BufTy).Contents (Elt Ideal)) (i : S32768x1024.Idx) :
    val_main_v50 (F := Ideal) x0 x1 x2 x3 x4 x5 i
      = gate (bySqrt c1024 eps) (lin (rowOf x0 (i 0)) (matOf x2) (vecOf x3)) (lin (rowOf x1 (i 0)) (matOf x4) (vecOf x5)) (i 1) := by
  rw [val_main_v50_apply, val_main_v49_apply, val_main_cst_10_apply, val_main_v48_apply, val_main_v47_apply,
    val_main_cst_9_apply, val_main_v46_apply, val_main_v45_apply, val_main_v44_apply, lnA, lnB]
  show Ideal.div (Ideal.ofBits .f32 0x3F800000#32) (Ideal.ofBits .f32 0x3F800000#32 + Ideal.exp (-(_ + _))) = _
  rw [Cert.Consts.ofBits_one]
  rfl

/-- The reference's result array is the cell of each row. -/
theorem result_eq (x0 x1 : (⟨S32768x512, .f32⟩ : BufTy).Contents (Elt Ideal)) (x2 : (⟨S512x1024, .f32⟩ : BufTy).Contents (Elt Ideal))
    (x3 : (⟨S1024, .f32⟩ : BufTy).Contents (Elt Ideal)) (x4 : (⟨S512x1024, .f32⟩ : BufTy).Contents (Elt Ideal))
    (x5 : (⟨S1024, .f32⟩ : BufTy).Contents (Elt Ideal)) (x6 : (⟨S512x512, .f32⟩ : BufTy).Contents (Elt Ideal))
    (x7 : (⟨S512, .f32⟩ : BufTy).Contents (Elt Ideal)) (x8 : (⟨S512x512, .f32⟩ : BufTy).Contents (Elt Ideal))
    (x9 : (⟨S512, .f32⟩ : BufTy).Contents (Elt Ideal)) :
    val_main_v104 (F := Ideal) x0 x1 x2 x3 x4 x5 x6 x7 x8 x9 = G x0 x1 x2 x3 x4 x5 x6 x7 x8 x9 := by
  funext i
  rw [val_main_v104_apply, val_main_v102_apply, val_main_v101_apply, val_main_v100_apply, val_main_cst_21_apply,
    val_main_v103_apply, val_main_v51_apply, val_main_v99_apply, val_main_v98_apply, val_main_v97_apply,
    val_main_v52_apply, gate_at, gate_at, lnC, lnD, show x1 i = rowOf x1 (i 0) (i 1) from congrArg x1 (eq_ix2 i)]
  rfl

end Cert.Gru.Ref

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibRowNorm.lean ====
/-
  A layer normalisation along the rows of an [a, b] vector, in a kernel's spelling, read at one index on the
  extended reals.

  The body takes the row sums, views them as an [a, 1] column, divides by the splat count (the column of means),
  repeats the column along the rows and subtracts, multiplies the deviations by themselves, sums and divides again,
  adds the splat ε, takes the reciprocal root, repeats that column and multiplies.  At (p, n) every step reads row p
  only: the column of means is the mean of row p, and the whole is the reciprocal-root normalisation of row p at n.
-/
import proofs.«163455_j4561255268489_2_alg».proof.Proof.LibRowOps
import proofs.«163455_j4561255268489_2_alg».proof.Proof.LibLayerNorm

noncomputable section

namespace Cert.RowNorm

open Idealize.ShloMosaic Idealize.ShloMosaic.ValueIdx Cert.RowOps Cert.LayerNorm

variable {a b : Nat}

/-- The column of row means at (p, u): the mean of row p. -/
theorem colMean_apply (T : FVec Ideal ⟨2, ![a, b]⟩ .f32) (c : Ideal .f32) (acc : BitVec FTy.f32.bits)
    (h : (⟨2, ![a, b]⟩ : Shape).Reduces [1] ⟨1, ![a]⟩) (hφ : FKind.Formats .f32) (hacc : acc = FKind.add.neutral .f32 hφ)
    (hs : (⟨1, ![a]⟩ : Shape).ShapeCasts ⟨2, ![a, 1]⟩) (p : Fin a) (u : Fin 1) :
    divf (shapeCast ⟨2, ![a, 1]⟩ (multiReduction .add [1] ⟨1, ![a]⟩ T acc h hφ hacc) hs) (broadcast ⟨2, ![a, 1]⟩ c) (ix2 p u)
      = mean c (fun k => T (ix2 p k)) := by
  rw [divf_apply, column_apply, rowSum_apply, broadcast_apply]
  rfl

/-- A vector less a column repeated along its rows, at (p, k). -/
theorem lessCol_apply (T : FVec Ideal ⟨2, ![a, b]⟩ .f32) (M : FVec Ideal ⟨2, ![a, 1]⟩ .f32)
    (hb : (⟨2, ![a, 1]⟩ : Shape).Broadcasts ⟨2, ![a, b]⟩) (p : Fin a) (k : Fin b) :
    subf T (broadcastTo ⟨2, ![a, b]⟩ M hb) (ix2 p k) = T (ix2 p k) - M (ix2 p (0 : Fin 1)) := by
  rw [subf_apply, spread_apply]

/-- A reciprocal root taken entry by entry. -/
theorem rsqrt_apply {s : Shape} (x : FVec Ideal s .f32) (i : s.Idx) : rsqrt x i = Ideal.rsqrt (x i) := rfl

/-- The reciprocal-root column at (p, u), from the squared deviations `Q`: one over the root of their row mean plus ε. -/
theorem rsqrtCol_apply (Q : FVec Ideal ⟨2, ![a, b]⟩ .f32) (c e : Ideal .f32) (acc : BitVec FTy.f32.bits)
    (h : (⟨2, ![a, b]⟩ : Shape).Reduces [1] ⟨1, ![a]⟩) (hφ : FKind.Formats .f32) (hacc : acc = FKind.add.neutral .f32 hφ)
    (hs : (⟨1, ![a]⟩ : Shape).ShapeCasts ⟨2, ![a, 1]⟩) (p : Fin a) (u : Fin 1) :
    rsqrt (addf (divf (shapeCast ⟨2, ![a, 1]⟩ (multiReduction .add [1] ⟨1, ![a]⟩ Q acc h hφ hacc) hs) (broadcast ⟨2, ![a, 1]⟩ c))
        (broadcast ⟨2, ![a, 1]⟩ e)) (ix2 p u)
      = Ideal.rsqrt (Ideal.div (∑ k : Fin b, Q (ix2 p k)) c + e) := by
  rw [rsqrt_apply, addf_apply, divf_apply, column_apply, rowSum_apply, broadcast_apply, broadcast_apply]

/-- The normalised vector at (p, n): the reciprocal-root normalisation of row p at n. -/
theorem rowNorm_apply (T : FVec Ideal ⟨2, ![a, b]⟩ .f32) (c e : Ideal .f32) (acc : BitVec FTy.f32.bits)
    (h : (⟨2, ![a, b]⟩ : Shape).Reduces [1] ⟨1, ![a]⟩) (hφ : FKind.Formats .f32) (hacc : acc = FKind.add.neutral .f32 hφ)
    (hs : (⟨1, ![a]⟩ : Shape).ShapeCasts ⟨2, ![a, 1]⟩) (hb : (⟨2, ![a, 1]⟩ : Shape).Broadcasts ⟨2, ![a, b]⟩)
    (p : Fin a) (n : Fin b) :
    mulf (subf T (broadcastTo ⟨2, ![a, b]⟩ (divf (shapeCast ⟨2, ![a, 1]⟩ (multiReduction .add [1] ⟨1, ![a]⟩ T acc h hφ hacc) hs)
          (broadcast ⟨2, ![a, 1]⟩ c)) hb))
        (broadcastTo ⟨2, ![a, b]⟩ (rsqrt (addf (divf (shapeCast ⟨2, ![a, 1]⟩ (multiReduction .add [1] ⟨1, ![a]⟩
          (mulf (subf T (broadcastTo ⟨2, ![a, b]⟩ (divf (shapeCast ⟨2, ![a, 1]⟩ (multiReduction .add [1] ⟨1, ![a]⟩ T acc h hφ hacc) hs)
              (broadcast ⟨2, ![a, 1]⟩ c)) hb))
            (subf T (broadcastTo ⟨2, ![a, b]⟩ (divf (shapeCast ⟨2, ![a, 1]⟩ (multiReduction .add [1] ⟨1, ![a]⟩ T acc h hφ hacc) hs)
              (broadcast ⟨2, ![a, 1]⟩ c)) hb)))
          acc h hφ hacc) hs) (broadcast ⟨2, ![a, 1]⟩ c)) (broadcast ⟨2, ![a, 1]⟩ e))) hb) (ix2 p n)
      = byRsqrt c e (fun k => T (ix2 p k)) n := by
  rw [mulf_apply, lessCol_apply, colMean_apply, spread_apply, rsqrtCol_apply]
  refine congrArg (fun s => (T (ix2 p n) - mean c fun k => T (ix2 p k)) * Ideal.rsqrt (Ideal.div s c + e))
    (Finset.sum_congr rfl fun k _ => ?_)
  rw [mulf_apply, lessCol_apply, colMean_apply]

end Cert.RowNorm

end
-- ==== Proof.KernelBlock.lean ====
/-
  One block of the kernel's output, entry by entry: the cell of the block's rows.

  At a grid point the body holds a [1024, 512] block of `x` and of `h`, the fused [512, 1536] weights and the fused
  [1, 1536] bias rows.  It forms the two [1024, 1536] projections (a matrix product into zero plus the bias row repeated
  down the block), cuts columns 0..1023 (the gate projections) and 1024..1535 (the candidate projections) out of each,
  normalises every cut along its rows by the reciprocal-root spelling, takes the logistic function of the summed gate
  projections, cuts the gates into the update half and the reset half, and blends.  Read at (p, q) each step touches
  row p of the block only: the entry is the cell of that row at column q, its four projections the rows of the cuts.
-/
import proofs.«163455_j4561255268489_2_alg».proof.Proof.Gen.KernelIdeal.Frame
import Idealize.ShloMosaic.Lib.ValueLayout
import proofs.«163455_j4561255268489_2_alg».proof.Proof.LibRowNorm
import proofs.«163455_j4561255268489_2_alg».proof.Proof.Spec

set_option maxRecDepth 16384

noncomputable section

namespace Cert.Gru.Kernel

open Cert.KernelIdeal Cert.KernelIdeal.Gen Idealize.ShloMosaic Idealize.ShloMosaic.ValueIdx
open Cert.LayerNorm Cert.Gru Cert.RowOps Cert.RowNorm

/-! ### The two projections of a block -/

theorem plain : IsPlain dot_S1024x512_S512x1536_S1024x1536_1_0_0_1_n_n := ⟨rfl, rfl, rfl, rfl, rfl, rfl⟩

/-- The projection of the `x` block at (p, n): row p of the block times column n of the weights, plus bias entry n. -/
theorem projX_apply (P0 : Vec Ideal S1024x512 .f32) (P1 : Vec Ideal S512x1536 .bf16) (P2 : Vec Ideal S1x1536 .f32)
    (p : Fin 1024) (n : Fin 1536) :
    k0_pay2 P0 P1 P2 (ix2 p n) = (∑ k : Fin 512, P0 (ix2 p k) * P1 (ix2 k n)) + P2 (ix2 (0 : Fin 1) n) := by
  show addf (F := Idealize.ShloMosaic.Ideal) (s := S1024x1536) (φ := .f32)
    (matmul (F := Idealize.ShloMosaic.Ideal) dot_S1024x512_S512x1536_S1024x1536_1_0_0_1_n_n none
      (truncf (F := Idealize.ShloMosaic.Ideal) .bf16 P0 bitsLt_bf16_f32)
      (shapeCast (α := Idealize.ShloMosaic.Ideal .bf16) S512x1536 P1 shapeCasts_S512x1536_S512x1536)
      (constant (F := Idealize.ShloMosaic.Ideal) S1024x1536 .f32 0x00000000#32))
    (broadcastTo S1024x1536 (shapeCast (α := Idealize.ShloMosaic.Ideal .f32) S1x1536 P2 shapeCasts_S1x1536_S1x1536)
      broadcasts_S1x1536_S1024x1536)
    (ix2 p n) = _
  rw [addf_apply, shapeCast_self, shapeCast_self, broadcastTo_1b_ab_apply]
  exact congrArg (· + P2 (ix2 (0 : Fin 1) n)) (matmul_zero_apply plain none (truncf .bf16 P0 bitsLt_bf16_f32) P1 p n)

/-- The projection of the `h` block at (p, n). -/
theorem projH_apply (P3 : Vec Ideal S1024x512 .f32) (P4 : Vec Ideal S512x1536 .bf16) (P5 : Vec Ideal S1x1536 .f32)
    (p : Fin 1024) (n : Fin 1536) :
    k0_pay3 P3 P4 P5 (ix2 p n) = (∑ k : Fin 512, P3 (ix2 p k) * P4 (ix2 k n)) + P5 (ix2 (0 : Fin 1) n) :=
  projX_apply P3 P4 P5 p n

/-! ### The cuts -/

/-- Columns 0..1023 and columns 1024..1535 of a [1024, 1536] projection. -/
abbrev cutLo (L : FVec Ideal S1024x1536 .f32) : FVec Ideal S1024x1024 .f32 :=
  extractStridedSlice S1024x1024 ![0, 0] L slices_S1024x1536_o0_0_S1024x1024
abbrev cutHi (L : FVec Ideal S1024x1536 .f32) : FVec Ideal S1024x512 .f32 :=
  extractStridedSlice S1024x512 ![0, 1024] L slices_S1024x1536_o0_1024_S1024x512

theorem cutLo_apply (L : FVec Ideal S1024x1536 .f32) (p : Fin 1024) (n : Fin 1024) :
    cutLo L (ix2 p n) = L (ix2 p (⟨n.val, by have := n.isLt; omega⟩ : Fin 1536)) :=
  slice2_axis1_apply 0 L slices_S1024x1536_o0_0_S1024x1024 p n _ (Nat.zero_add _).symm

theorem cutHi_apply (L : FVec Ideal S1024x1536 .f32) (p : Fin 1024) (n : Fin 512) :
    cutHi L (ix2 p n) = L (ix2 p (⟨1024 + n.val, by have := n.isLt; omega⟩ : Fin 1536)) :=
  slice2_axis1_apply 1024 L slices_S1024x1536_o0_1024_S1024x512 p n _ rfl

/-! ### The payloads at an index -/

/-- The normalised gate projection of `x`. -/
theorem pay7_apply (P0 : Vec Ideal S1024x512 .f32) (P1 : Vec Ideal S512x1536 .bf16) (P2 : Vec Ideal S1x1536 .f32)
    (p : Fin 1024) (n : Fin 1024) :
    k0_pay7 P0 P1 P2 (ix2 p n) = byRsqrt c1024 eps (fun k => cutLo (k0_pay2 P0 P1 P2) (ix2 p k)) n :=
  rowNorm_apply (cutLo (k0_pay2 P0 P1 P2)) (Scalar.ofBits .f32 0x44800000#32) (Scalar.ofBits .f32 0x3727C5AC#32)
    0x00000000#32 reduces_S1024x1024_S1024 (.inl rfl) rfl shapeCasts_S1024_S1024x1 broadcasts_S1024x1_S1024x1024 p n

/-- The gates: the logistic function of the two normalised gate projections' sum. -/
theorem pay8_apply (v20 v39 : FVec Ideal S1024x1024 .f32) (p : Fin 1024) (n : Fin 1024) :
    k0_pay8 v20 v39 (ix2 p n)
      = Ideal.logistic (v39 (ix2 p n) + byRsqrt c1024 eps (fun k => v20 (ix2 p k)) n) :=
  congrArg (fun s => Ideal.logistic (v39 (ix2 p n) + s))
    (rowNorm_apply v20 (Scalar.ofBits .f32 0x44800000#32) (Scalar.ofBits .f32 0x3727C5AC#32)
      0x00000000#32 reduces_S1024x1024_S1024 (.inl rfl) rfl shapeCasts_S1024_S1024x1 broadcasts_S1024x1_S1024x1024 p n)

/-- The update gate is the gates' first half, the reset gate their second. -/
theorem pay9_apply (v20 v39 : FVec Ideal S1024x1024 .f32) (p : Fin 1024) (q : Fin 512) :
    k0_pay9 v20 v39 (ix2 p q) = k0_pay8 v20 v39 (ix2 p (lo q)) :=
  slice2_axis1_apply 0 (k0_pay8 v20 v39) slices_S1024x1024_o0_0_S1024x512 p q (lo q) (Nat.zero_add _).symm

theorem pay10_apply (v20 v39 : FVec Ideal S1024x1024 .f32) (p : Fin 1024) (q : Fin 512) :
    k0_pay10 v20 v39 (ix2 p q) = k0_pay8 v20 v39 (ix2 p (hi q)) :=
  slice2_axis1_apply 512 (k0_pay8 v20 v39) slices_S1024x1024_o0_512_S1024x512 p q (hi q) rfl

/-- The normalised candidate projection of `x`. -/
theorem pay11_apply (v19 : FVec Ideal S1024x512 .f32) (p : Fin 1024) (q : Fin 512) :
    k0_pay11 v19 (ix2 p q) = byRsqrt c512 eps (fun k => v19 (ix2 p k)) q :=
  rowNorm_apply v19 (Scalar.ofBits .f32 0x44000000#32) (Scalar.ofBits .f32 0x3727C5AC#32)
    0x00000000#32 reduces_S1024x512_S1024 (.inl rfl) rfl shapeCasts_S1024_S1024x1 broadcasts_S1024x1_S1024x512 p q

/-- The candidate projection of `h`: its column of row means, and its squared deviations. -/
theorem pay12_apply (v21 : FVec Ideal S1024x512 .f32) (p : Fin 1024) (u : Fin 1) :
    k0_pay12 v21 (ix2 p u) = mean c512 (fun k => v21 (ix2 p k)) :=
  colMean_apply v21 (Scalar.ofBits .f32 0x44000000#32) 0x00000000#32 reduces_S1024x512_S1024 (.inl rfl) rfl
    shapeCasts_S1024_S1024x1 p u

theorem pay13_apply (v21 : FVec Ideal S1024x512 .f32) (p : Fin 1024) (k : Fin 512) :
    k0_pay13 v21 (ix2 p k)
      = (v21 (ix2 p k) - mean c512 (fun k => v21 (ix2 p k))) * (v21 (ix2 p k) - mean c512 (fun k => v21 (ix2 p k))) := by
  show mulf (subf v21 (broadcastTo S1024x512 (k0_pay12 v21) broadcasts_S1024x1_S1024x512))
    (subf v21 (broadcastTo S1024x512 (k0_pay12 v21) broadcasts_S1024x1_S1024x512)) (ix2 p k) = _
  rw [mulf_apply, lessCol_apply, pay12_apply]

/-- A hyperbolic tangent taken entry by entry. -/
theorem tanh_apply {s : Shape} (x : FVec Ideal s .f32) (i : s.Idx) : tanh x i = Ideal.tanh (x i) := rfl

/-- The blend at (p, q), over the values the earlier steps left. -/
theorem pay1_apply (v1 v21 v60 v61 v79 : FVec Ideal S1024x512 .f32) (v83 : FVec Ideal S1024x1 .f32)
    (v86 : FVec Ideal S1024x512 .f32) (p : Fin 1024) (q : Fin 512) :
    k0_pay1 v1 v21 v60 v61 v79 v83 v86 (ix2 p q)
      = (one - v60 (ix2 p q)) * v1 (ix2 p q)
        + v60 (ix2 p q) * Ideal.tanh (v79 (ix2 p q) + v61 (ix2 p q)
            * ((v21 (ix2 p q) - v83 (ix2 p (0 : Fin 1))) * Ideal.rsqrt (Ideal.div (∑ k : Fin 512, v86 (ix2 p k)) c512 + eps))) := by
  show addf (mulf (subf (broadcast S1024x512 (Scalar.ofBits .f32 0x3F800000#32)) v60) v1)
    (mulf v60 (tanh (addf v79 (mulf v61 (mulf (subf v21 (broadcastTo S1024x512 v83 broadcasts_S1024x1_S1024x512))
      (broadcastTo S1024x512 (rsqrt (addf (divf (shapeCast S1024x1 (multiReduction .add [1] S1024 v86 0x00000000#32
        reduces_S1024x512_S1024 (.inl rfl) rfl) shapeCasts_S1024_S1024x1) (broadcast S1024x1 (Scalar.ofBits .f32 0x44000000#32)))
        (broadcast S1024x1 (Scalar.ofBits .f32 0x3727C5AC#32)))) broadcasts_S1024x1_S1024x512)))))) (ix2 p q) = _
  rw [addf_apply, mulf_apply, subf_apply, broadcast_apply, mulf_apply, tanh_apply, addf_apply, mulf_apply, mulf_apply,
    lessCol_apply, spread_apply]
  exact congrArg (fun s => (one - v60 (ix2 p q)) * v1 (ix2 p q)
      + v60 (ix2 p q) * Ideal.tanh (v79 (ix2 p q) + v61 (ix2 p q) * ((v21 (ix2 p q) - v83 (ix2 p (0 : Fin 1))) * s)))
    (rsqrtCol_apply v86 (Scalar.ofBits .f32 0x44000000#32) (Scalar.ofBits .f32 0x3727C5AC#32) 0x00000000#32
      reduces_S1024x512_S1024 (.inl rfl) rfl shapeCasts_S1024_S1024x1 p (0 : Fin 1))

/-! ### The block -/

theorem hz : (![0, 0] : Fin 2 → Nat) = fun _ => 0 := funext fun a => by fin_cases a <;> rfl

/-- What the body leaves in the output block, at (p, q): the cell of row p at column q, the four projections
    the rows of the cuts of the two block projections. -/
theorem block_apply (x0 x1 : Vec Ideal S1024x512 .f32) (x2 : Vec Ideal S512x1536 .bf16) (x3 : Vec Ideal S1x1536 .f32)
    (x4 : Vec Ideal S512x1536 .bf16) (x5 : Vec Ideal S1x1536 .f32) (p : Fin 1024) (q : Fin 512) :
    out0_6 x0 x1 x2 x3 x4 x5 (ix2 p q) = cell (byRsqrt c1024 eps) (byRsqrt c512 eps)
      (fun k => cutLo (k0_pay2 x0 x2 x3) (ix2 p k)) (fun k => cutLo (k0_pay3 x1 x4 x5) (ix2 p k))
      (fun k => cutHi (k0_pay2 x0 x2 x3) (ix2 p k)) (fun k => cutHi (k0_pay3 x1 x4 x5) (ix2 p k))
      (fun k => x1 (ix2 p k)) q := by
  unfold out0_6
  rw [View.canon_unit_zero hz]
  simp only [View.ld_unit_zero (S := S1024x512) hz, View.ld_unit_zero (S := S512x1536) hz, View.ld_unit_zero (S := S1x1536) hz]
  rw [pay1_apply, pay9_apply, pay10_apply, pay8_apply, pay8_apply, pay7_apply, pay7_apply, pay11_apply, pay12_apply]
  simp only [pay13_apply]
  rfl

end Cert.Gru.Kernel

end
-- ==== Proof.KernelValue.lean ====
/-
  The kernel's result array after its run: the cell of every row.

  The grid has 32 points; point t stages rows 1024·t … 1024·t + 1023 of `x` and of `h`, the whole fused weights and
  bias rows — which the host part of the program lays out before the call: the gate weights beside the candidate
  weights along the columns, the two biases end to end as one row —, and writes rows 1024·t … of the result.  So the
  block's projections are rows of the argument arrays times the argument weights, column n < 1024 of the fused
  arrays the gate argument at n and column 1024 + n the candidate argument at n; each block the body leaves is the
  restriction of one whole-array function, and the 32 blocks tile the result.
-/
import proofs.«163455_j4561255268489_2_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Gru.Kernel

open Cert.KernelIdeal Cert.KernelIdeal.Gen Idealize.ShloMosaic.ValueIdx Idealize.ShloMosaic.StableHlo
open Cert.LayerNorm Cert.Gru Cert.RowOps Cert.RowNorm

variable (m : (ℓ : Loc nD τ sig) → Buf (Elt Ideal) ℓ) (ρ : Dev nD → PrngReg)

/-! ### The fused weights and biases as the region finds them -/

theorem V_Wx (c : Dev nD) : (V m c main_v1 : S512x1536.Idx → EReal)
    = truncf (F := Ideal) .bf16 (concatenate S512x1536 1 [⟨S512x1024, m ((c : Thread nD τ).loc main_arg2)⟩, ⟨S512x512, m ((c : Thread nD τ).loc main_arg6)⟩]
        concatenates_S512x1024_S512x512_S512x1536_d1) bitsLt_bf16_f32 := by
  dsimp only [Gen.V, Gen.hostOps0]; after_results

theorem V_Wh (c : Dev nD) : (V m c main_v3 : S512x1536.Idx → EReal)
    = truncf (F := Ideal) .bf16 (concatenate S512x1536 1 [⟨S512x1024, m ((c : Thread nD τ).loc main_arg4)⟩, ⟨S512x512, m ((c : Thread nD τ).loc main_arg8)⟩]
        concatenates_S512x1024_S512x512_S512x1536_d1) bitsLt_bf16_f32 := by
  dsimp only [Gen.V, Gen.hostOps0]; after_results

theorem V_bx (c : Dev nD) : (V m c main_v5 : S1x1536.Idx → EReal)
    = shapeCast S1x1536 (concatenate S1536 0 [⟨S1024, m ((c : Thread nD τ).loc main_arg3)⟩, ⟨S512, m ((c : Thread nD τ).loc main_arg7)⟩]
        concatenates_S1024_S512_S1536_d0) shapeCasts_S1536_S1x1536 := by
  dsimp only [Gen.V, Gen.hostOps0]; after_results; rfl

theorem V_bh (c : Dev nD) : (V m c main_v7 : S1x1536.Idx → EReal)
    = shapeCast S1x1536 (concatenate S1536 0 [⟨S1024, m ((c : Thread nD τ).loc main_arg5)⟩, ⟨S512, m ((c : Thread nD τ).loc main_arg9)⟩]
        concatenates_S1024_S512_S1536_d0) shapeCasts_S1536_S1x1536 := by
  dsimp only [Gen.V, Gen.hostOps0]; after_results; rfl

/-- Two weight matrices side by side, at a column of the first and at a column of the second. -/
theorem fusedW_lo (W1 : S512x1024.Idx → EReal) (W2 : S512x512.Idx → EReal) (k : Fin 512) (n : Fin 1024) :
    truncf (F := Ideal) .bf16 (concatenate S512x1536 1 [⟨S512x1024, W1⟩, ⟨S512x512, W2⟩] concatenates_S512x1024_S512x512_S512x1536_d1)
        bitsLt_bf16_f32 (ix2 k (⟨n.val, by have := n.isLt; omega⟩ : Fin 1536)) = W1 (ix2 k n) :=
  concatenate_pair_apply_left 1 W1 W2 concatenates_S512x1024_S512x512_S512x1536_d1 _ rfl (ix2 k n)
    (fun b => by match b with | ⟨0, _⟩ => rfl | ⟨1, _⟩ => rfl)

theorem fusedW_hi (W1 : S512x1024.Idx → EReal) (W2 : S512x512.Idx → EReal) (k : Fin 512) (n : Fin 512) :
    truncf (F := Ideal) .bf16 (concatenate S512x1536 1 [⟨S512x1024, W1⟩, ⟨S512x512, W2⟩] concatenates_S512x1024_S512x512_S512x1536_d1)
        bitsLt_bf16_f32 (ix2 k (⟨1024 + n.val, by have := n.isLt; omega⟩ : Fin 1536)) = W2 (ix2 k n) :=
  concatenate_pair_apply_right 1 W1 W2 concatenates_S512x1024_S512x512_S512x1536_d1 _ rfl rfl (ix2 k n)
    (fun b hb => by match b with | ⟨0, _⟩ => rfl | ⟨1, _⟩ => exact absurd rfl hb)
    (by show n.val + 1024 = 1024 + n.val; omega)

/-- Two bias vectors end to end as one row, at an entry of the first and at an entry of the second. -/
theorem fusedB_lo (b1 : S1024.Idx → EReal) (b2 : S512.Idx → EReal) (n : Fin 1024) :
    shapeCast S1x1536 (concatenate S1536 0 [⟨S1024, b1⟩, ⟨S512, b2⟩] concatenates_S1024_S512_S1536_d0) shapeCasts_S1536_S1x1536
        (ix2 (0 : Fin 1) (⟨n.val, by have := n.isLt; omega⟩ : Fin 1536)) = b1 (ix1 n) := by
  rw [shapeCast_apply _ shapeCasts_S1536_S1x1536 _ (ix1 (⟨n.val, by have := n.isLt; omega⟩ : Fin 1536)) (by
    rw [Shape.rowMajor_val_one, Shape.rowMajor_val_two]; show n.val = 0 * 1536 + n.val; omega)]
  exact concatenate_pair_apply_left 0 b1 b2 concatenates_S1024_S512_S1536_d0 _ rfl (ix1 n)
    (fun b => by match b with | ⟨0, _⟩ => rfl)

theorem fusedB_hi (b1 : S1024.Idx → EReal) (b2 : S512.Idx → EReal) (n : Fin 512) :
    shapeCast S1x1536 (concatenate S1536 0 [⟨S1024, b1⟩, ⟨S512, b2⟩] concatenates_S1024_S512_S1536_d0) shapeCasts_S1536_S1x1536
        (ix2 (0 : Fin 1) (⟨1024 + n.val, by have := n.isLt; omega⟩ : Fin 1536)) = b2 (ix1 n) := by
  rw [shapeCast_apply _ shapeCasts_S1536_S1x1536 _ (ix1 (⟨1024 + n.val, by have := n.isLt; omega⟩ : Fin 1536)) (by
    rw [Shape.rowMajor_val_one, Shape.rowMajor_val_two]; show 1024 + n.val = 0 * 1536 + (1024 + n.val); omega)]
  exact concatenate_pair_apply_right 0 b1 b2 concatenates_S1024_S512_S1536_d0 _ rfl rfl (ix1 n)
    (fun b hb => by match b with | ⟨0, _⟩ => exact absurd rfl hb)
    (by show n.val + 1024 = 1024 + n.val; omega)

/-! ### A block projection's cuts are rows of the arguments' projections -/

/-- With the block's rows those of `X` from row `r` on, the fused weights and bias as laid out above: the first cut of
    the block projection, along row p, is the dense row of row r + p through the first weights and bias; the second
    cut through the second. -/
theorem cut_rows (P : Vec Ideal S1024x512 .f32) (X : S32768x512.Idx → EReal) (r : Fin 32768) (p : Fin 1024)
    (hP : ∀ k : Fin 512, P (ix2 p k) = X (ix2 r k))
    (W1 : S512x1024.Idx → EReal) (W2 : S512x512.Idx → EReal) (b1 : S1024.Idx → EReal) (b2 : S512.Idx → EReal) :
    (fun n => cutLo (k0_pay2 P
        (truncf (F := Ideal) .bf16 (concatenate S512x1536 1 [⟨S512x1024, W1⟩, ⟨S512x512, W2⟩] concatenates_S512x1024_S512x512_S512x1536_d1) bitsLt_bf16_f32)
        (shapeCast S1x1536 (concatenate S1536 0 [⟨S1024, b1⟩, ⟨S512, b2⟩] concatenates_S1024_S512_S1536_d0) shapeCasts_S1536_S1x1536)) (ix2 p n))
      = lin (rowOf X r) (matOf W1) (vecOf b1)
    ∧ (fun n => cutHi (k0_pay2 P
        (truncf (F := Ideal) .bf16 (concatenate S512x1536 1 [⟨S512x1024, W1⟩, ⟨S512x512, W2⟩] concatenates_S512x1024_S512x512_S512x1536_d1) bitsLt_bf16_f32)
        (shapeCast S1x1536 (concatenate S1536 0 [⟨S1024, b1⟩, ⟨S512, b2⟩] concatenates_S1024_S512_S1536_d0) shapeCasts_S1536_S1x1536)) (ix2 p n))
      = lin (rowOf X r) (matOf W2) (vecOf b2) := by
  constructor
  · funext n
    rw [cutLo_apply, projX_apply, fusedB_lo]
    simp only [hP, fusedW_lo]
    rfl
  · funext n
    rw [cutHi_apply, projX_apply, fusedB_hi]
    simp only [hP, fusedW_hi]
    rfl

/-! ### A block is the restriction of one whole-array function -/

theorem pay3_eq (a : Vec Ideal S1024x512 .f32) (b : Vec Ideal S512x1536 .bf16) (d : Vec Ideal S1x1536 .f32) :
    k0_pay3 a b d = k0_pay2 a b d := rfl

/-- With the staged blocks the rows of `X` and `H` from row r on and the fused arrays as the host lays them out, the
    body's result at (p, q) is the cell of row r + p of the arguments, at column q. -/
theorem block_is_cell (X H : S32768x512.Idx → EReal) (Wi : S512x1024.Idx → EReal) (bi : S1024.Idx → EReal)
    (Wh : S512x1024.Idx → EReal) (bh : S1024.Idx → EReal) (Ww : S512x512.Idx → EReal) (bw : S512.Idx → EReal)
    (Wu : S512x512.Idx → EReal) (bu : S512.Idx → EReal)
    (x0 x1 : Vec Ideal S1024x512 .f32) (x2 : Vec Ideal S512x1536 .bf16) (x3 : Vec Ideal S1x1536 .f32)
    (x4 : Vec Ideal S512x1536 .bf16) (x5 : Vec Ideal S1x1536 .f32)
    (r : Fin 32768) (p : Fin 1024) (q : Fin 512)
    (h0 : ∀ k : Fin 512, x0 (ix2 p k) = X (ix2 r k)) (h1 : ∀ k : Fin 512, x1 (ix2 p k) = H (ix2 r k))
    (h2 : x2 = truncf (F := Ideal) .bf16 (concatenate S512x1536 1 [⟨S512x1024, Wi⟩, ⟨S512x512, Ww⟩] concatenates_S512x1024_S512x512_S512x1536_d1) bitsLt_bf16_f32)
    (h3 : x3 = shapeCast S1x1536 (concatenate S1536 0 [⟨S1024, bi⟩, ⟨S512, bw⟩] concatenates_S1024_S512_S1536_d0) shapeCasts_S1536_S1x1536)
    (h4 : x4 = truncf (F := Ideal) .bf16 (concatenate S512x1536 1 [⟨S512x1024, Wh⟩, ⟨S512x512, Wu⟩] concatenates_S512x1024_S512x512_S512x1536_d1) bitsLt_bf16_f32)
    (h5 : x5 = shapeCast S1x1536 (concatenate S1536 0 [⟨S1024, bh⟩, ⟨S512, bu⟩] concatenates_S1024_S512_S1536_d0) shapeCasts_S1536_S1x1536) :
    out0_6 x0 x1 x2 x3 x4 x5 (ix2 p q) = G X H Wi bi Wh bh Ww bw Wu bu (ix2 r q) := by
  subst h2 h3 h4 h5
  rw [block_apply, cell_byRsqrt]
  obtain ⟨eA, eC⟩ := cut_rows x0 X r p h0 Wi Ww bi bw
  obtain ⟨eB, eD⟩ := cut_rows x1 H r p h1 Wh Wu bh bu
  simp only [pay3_eq]
  rw [eA, eC, eB, eD, show (fun k => x1 (ix2 p k)) = rowOf H r from funext h1]
  rfl

/-! ### The windows' blocks -/

/-- The printed index maps, decided over the 32 points: point t stages block row t of `x`, of `h` and of the result,
    and the fused weights and biases whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem t_lt (t : Fin cfg0.N) : t.val < 32 := by
  have h := t.isLt
  have hN : cfg0.N = 32 := N_0
  omega

/-- Row p of point t's block is row 1024·t + p of the array. -/
def rowAt (t : Fin cfg0.N) (p : Fin 1024) : Fin 32768 :=
  ⟨1024 * t.val + p.val, by have := t_lt t; have := p.isLt; omega⟩

theorem iblk0_apply (c : Dev nD) (t : Fin cfg0.N) (p : Fin 1024) (k : Fin 512) :
    (iblk m c 0 t : Vec Ideal S1024x512 .f32) (ix2 p k)
      = (m ((c : Thread nD τ).loc main_arg0) : S32768x512.Idx → EReal) (ix2 (rowAt t p) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 512 + 1 * k.val = k.val; rw [e1]; omega

theorem iblk1_apply (c : Dev nD) (t : Fin cfg0.N) (p : Fin 1024) (k : Fin 512) :
    (iblk m c 1 t : Vec Ideal S1024x512 .f32) (ix2 p k)
      = (m ((c : Thread nD τ).loc main_arg1) : S32768x512.Idx → EReal) (ix2 (rowAt t p) k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 1024 + 1 * p.val = 1024 * t.val + p.val; rw [e0]; omega
  | ⟨1, _⟩ => show win0_1.index t (1 : Fin 2) * 512 + 1 * k.val = k.val; rw [e1]; omega

theorem iblk2_eq (c : Dev nD) (t : Fin cfg0.N) :
    (iblk m c 2 t : Vec Ideal S512x1536 .bf16) = (V m c main_v1 : S512x1536.Idx → EReal) := by
  obtain ⟨-, -, -, -, -, -, e0, e1, -⟩ := idx_facts t
  funext y
  unfold iblk
  rw [View.read_apply]
  show V m c main_v1 _ = V m c main_v1 y
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 1536 + 1 * (y 1).val = (y 1).val; rw [e1]; omega

theorem iblk3_eq (c : Dev nD) (t : Fin cfg0.N) :
    (iblk m c 3 t : Vec Ideal S1x1536 .f32) = (V m c main_v5 : S1x1536.Idx → EReal) := by
  obtain ⟨-, -, -, -, -, -, -, -, e0, e1, -⟩ := idx_facts t
  funext y
  unfold iblk
  rw [View.read_apply]
  show V m c main_v5 _ = V m c main_v5 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1536 + 1 * (y 1).val = (y 1).val; rw [e1]; omega

theorem iblk4_eq (c : Dev nD) (t : Fin cfg0.N) :
    (iblk m c 4 t : Vec Ideal S512x1536 .bf16) = (V m c main_v3 : S512x1536.Idx → EReal) := by
  obtain ⟨-, -, -, -, -, -, -, -, -, -, e0, e1, -⟩ := idx_facts t
  funext y
  unfold iblk
  rw [View.read_apply]
  show V m c main_v3 _ = V m c main_v3 y
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 1536 + 1 * (y 1).val = (y 1).val; rw [e1]; omega

theorem iblk5_eq (c : Dev nD) (t : Fin cfg0.N) :
    (iblk m c 5 t : Vec Ideal S1x1536 .f32) = (V m c main_v7 : S1x1536.Idx → EReal) := by
  obtain ⟨-, -, -, -, -, -, -, -, -, -, -, -, e0, e1⟩ := idx_facts t
  funext y
  unfold iblk
  rw [View.read_apply]
  show V m c main_v7 _ = V m c main_v7 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 1536 + 1 * (y 1).val = (y 1).val; rw [e1]; omega

/-! ### From the blocks to the array -/

/-- The cell of every row of the argument arrays as launched. -/
abbrev result (c : Dev nD) : S32768x512.Idx → EReal :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- What point t writes back is block t of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  obtain ⟨-, -, -, -, e0, e1, -⟩ := idx_facts t
  funext y
  show out0_6 (iblk m c 0 t) (iblk m c 1 t) (iblk m c 2 t) (iblk m c 3 t) (iblk m c 4 t) (iblk m c 5 t) y
    = result m c (((cfg0.win 6).blk t).view.emb y)
  have hb := block_is_cell (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))
    (iblk m c 0 t) (iblk m c 1 t) (iblk m c 2 t) (iblk m c 3 t) (iblk m c 4 t) (iblk m c 5 t)
    (rowAt t (y 0)) (y 0) (y 1) (iblk0_apply m c t (y 0)) (iblk1_apply m c t (y 0))
    ((iblk2_eq m c t).trans (V_Wx m c)) ((iblk3_eq m c t).trans (V_bx m c))
    ((iblk4_eq m c t).trans (V_Wh m c)) ((iblk5_eq m c t).trans (V_bh m c))
  have hy : (y : S1024x512.Idx) = ix2 (y 0) (y 1) := eq_ix2 y
  refine ((congrArg (out0_6 (iblk m c 0 t) (iblk m c 1 t) (iblk m c 2 t) (iblk m c 3 t) (iblk m c 4 t) (iblk m c 5 t)) hy).trans
    hb).trans (congrArg (result m c) ?_)
  funext a
  apply Fin.ext
  match a with
  | ⟨0, _⟩ => show 1024 * t.val + (y 0).val = win0_6.index t (0 : Fin 2) * 1024 + 1 * (y 0).val; rw [e0]; omega
  | ⟨1, _⟩ => show (y 1).val = win0_6.index t (1 : Fin 2) * 512 + 1 * (y 1).val; rw [e1]; omega

/-- An index of the array is in point t's block iff each coordinate is in the block's range on its axis. -/
theorem mem_blk (t : Fin cfg0.N) (i : S32768x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v8).slice (win0_6.rect t)).set ↔ _
  rw [View.set_slice_whole, Rect.mem_set_unit]
  exact Iff.rfl

/-- Every index of the result is in some point's block: row i₀ in the block of point i₀ / 1024. -/
theorem cover (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  have hN : cfg0.N = 32 := N_0
  have ht : (i 0).val / 1024 < cfg0.N := by rw [hN]; omega
  obtain ⟨-, -, -, -, e0, e1, -⟩ := idx_facts ⟨(i 0).val / 1024, ht⟩
  refine ⟨⟨(i 0).val / 1024, ht⟩, flush0_6 _, ?_⟩
  rw [mem_blk]
  intro a
  match a with
  | ⟨0, _⟩ =>
    show win0_6.index ⟨(i 0).val / 1024, ht⟩ (0 : Fin 2) * 1024 ≤ (i 0).val
      ∧ (i 0).val < win0_6.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, ht⟩ (1 : Fin 2) * 512 ≤ (i 1).val
      ∧ (i 1).val < win0_6.index ⟨(i 0).val / 1024, ht⟩ (1 : Fin 2) * 512 + 512
    rw [e1]; omega

/-- The result array after the run is `result`. -/
theorem final (c : Dev nD) : (dats m 0 c).arrAt 6 cfg0.N = result m c :=
  (dats m 0 c).arrAt_eq_of_cover 6 (result m c) (fun t _ => flushed_eq m c t) cover

/-! ### The run, read -/

/-- Every weakly fair execution of the idealized kernel program terminates with the result array at the cell of every
    row of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.Gru.Kernel

end
-- ==== Proof.lean ====
/-
  The layer-normalised gated recurrent cell: the kernel against its reference, on the extended reals.

  Both programs compute, for each of the 32768 rows, four dense projections of the row of `x` and of `h` (two of
  length 1024 for the gates, two of length 512 for the candidate), normalise each along its length (mean, mean squared
  deviation, ε = binary32(10⁻⁵) under the root), take the logistic function of the summed gate projections as update
  and reset gates, and blend  (1 − z)·h + z·tanh(LN C + ρ·LN D).  They differ in three ways, none of which changes a
  value at the ideal instance: the kernel works on 32 blocks of 1024 rows and feeds the matrix unit operands cut to
  bfloat16 (a change of format is the identity); it fuses the gate and candidate weights side by side and the biases end
  to end, and cuts the fused projections apart again (column n < 1024 of the fused array is the gate weight's column n,
  column 1024 + n the candidate weight's); and it scales by the reciprocal root where the reference divides by the
  root.  The last is the one law the proof needs: under the root stands a mean of squares plus a positive ε, which is
  positive on the extended reals whatever the inputs (a square is never negative, `⊥·⊥ = ⊤`), and above zero
  `x · rsqrt v = x / sqrt v` for every `x`.  So the claim holds of all inputs; the precondition is never opened.

  The modules: LibLayerNorm (the law), Consts (the four float words), Spec (the cell and the whole-array function `G`),
  RefCell (the reference's run is `G`, over the generated read-at-an-index lemmas), LibRowOps and LibRowNorm (a
  row-wise normalisation in the kernel's vector spelling read at an index), KernelBlock (what the body leaves in a block is
  the cell of the block's rows), KernelValue (the host-side layout of the fused arrays, the blocks as rows of the
  arguments, the 32 blocks tile the result, the run).  The frames are the generated ones; the ledger is empty.
-/
import proofs.«163455_j4561255268489_2_alg».proof.Defs
import proofs.«163455_j4561255268489_2_alg».proof.Proof.Gen.Kernel
import proofs.«163455_j4561255268489_2_alg».proof.Proof.Gen.Kernel.Skeleton
import proofs.«163455_j4561255268489_2_alg».proof.Proof.Gen.Kernel.Launch
import proofs.«163455_j4561255268489_2_alg».proof.Proof.Gen.Kernel.Points
import proofs.«163455_j4561255268489_2_alg».proof.Proof.Gen.Kernel.Frame
import proofs.«163455_j4561255268489_2_alg».proof.Proof.Gen.KernelIdeal
import proofs.«163455_j4561255268489_2_alg».proof.Proof.Gen.KernelIdeal.Skeleton
import proofs.«163455_j4561255268489_2_alg».proof.Proof.Gen.KernelIdeal.Launch
import proofs.«163455_j4561255268489_2_alg».proof.Proof.Gen.KernelIdeal.Points
import proofs.«163455_j4561255268489_2_alg».proof.Proof.Gen.KernelIdeal.Frame
import proofs.«163455_j4561255268489_2_alg».proof.Proof.Gen.ReferenceIdeal
import proofs.«163455_j4561255268489_2_alg».proof.Proof.Gen.Pre_finite_inputs
import proofs.«163455_j4561255268489_2_alg».proof.Proof.Gen.ReferenceIdeal.Run
import proofs.«163455_j4561255268489_2_alg».proof.Proof.Gen.ReferenceIdeal.Read
import proofs.«163455_j4561255268489_2_alg».proof.Proof.RefCell
import proofs.«163455_j4561255268489_2_alg».proof.Proof.KernelValue
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both runs end with the result array at the cell of every row. -/
theorem algebraic : Cert.algebraic_KernelIdeal_ReferenceIdeal := by
  intro m ρ m' ρ' _ hagree
  refine ⟨_, Cert.Gru.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v104_eq, Cert.Gru.Ref.result_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
